-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S128x16 .f32) (main_arg7 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x16 .f32) (main_arg6 : FVec F S128x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩
abbrev S5000x1 : Shape := ⟨2, ![5000, 1]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 49
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S128x16, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S100000x128, .f32⟩
  | .hbm, ⟨30, _⟩ => ⟨S640000x1, .i32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S100000x128, .f32⟩
  | .hbm, ⟨45, _⟩ => ⟨S640000x1, .i32⟩
  | .hbm, ⟨46, _⟩ => ⟨S100000x128, .f32⟩
  | .hbm, ⟨47, _⟩ => ⟨S1x16, .f32⟩
  | .hbm, ⟨48, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x16, .f32⟩
  | .local _ .vmem, ⟨18, _⟩ => ⟨S128x16, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .f32 = 32 ∨ (Rect.block (s := S128x16) S128x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S128x16, .f32⟩
  | .hbm, ⟨7, _⟩ => ⟨S16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S100000x128, .f32⟩
  | .hbm, ⟨57, _⟩ => ⟨S640000x1, .i32⟩
  | .hbm, ⟨58, _⟩ => ⟨S100000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S100000, .f32⟩
  | .hbm, ⟨63, _⟩ => ⟨S640000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x16, .f32⟩
  | .hbm, ⟨72, _⟩ => ⟨S100000x16, .f32⟩
  | .hbm, ⟨73, _⟩ => ⟨S100000x16, .f32⟩
  | .hbm, ⟨74, _⟩ => ⟨S1x16, .f32⟩
  | .hbm, ⟨75, _⟩ => ⟨S100000x16, .f32⟩
  | .hbm, ⟨76, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The whole program's run, with the result table named.

  @main is four segments: the host operations that build the neighbour sums and the counts, the first pallas_call,
  the host operations that build the second neighbour sums, the second pallas_call.  The program's frame proof already
  runs the four segments and ends with every unscoped buffer at the last boundary's contents; read at the result table
  instead of only at the arguments, the same run names the result.
-/
import proofs.«120822_j84885733638151_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program with the result table named: from any memory with zero counters every weakly fair
    execution terminates, nothing faulting, and in every final state the result table holds what the last segment
    boundary's contents `W4` hold at it, and the eight argument arrays are as launched. (The statement of the program's
    frame with one more conjunct: the last thread state holds every unscoped buffer at `W4`, the result among them.) -/
theorem run_named : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.LibHostForms.lean ====
/-
  Readings, at an entry, of host operations that spread a vector over a matrix or multiply two matrices, for any
  sizes.

  * A length-`a` vector laid out as an `a × 1` column (a broadcast along a new unit axis) and then spread over `b`
    columns reads, at `(p, q)`, the vector at `p`.
  * A length-`b` vector laid out as a `1 × b` row and then spread over `a` rows reads, at `(p, q)`, the vector at `q`.
  * The two steps of the first one at a time; the host's logarithm at an entry; the zero word added to a sum.
  * A scalar spread over any shape reads the scalar at every entry.
  * The host's matrix product of an `M × K` table with a `K × N` matrix, for any dimension numbers that contract the
    left columns with the right rows and batch nothing, reads at `(p, q)` the sum over `c` of
    `A (p, c) * B (c, q)` over the extended reals.
-/
import Idealize.ShloMosaic.Lib.Pipeline.Value
import Idealize.ShloMosaic.Lib.ValueIdx
import Idealize.ShloMosaic.PureOps.Ideal.Laws

noncomputable section

open scoped BigOperators

namespace Cert.Lib.HostForms

open Idealize.ShloMosaic Idealize.ShloMosaic.ValueIdx

variable {α : Type}

/-- A vector kept as a column and spread along the rows reads, at `(p, q)`, the vector at `p`. -/
theorem bcast_col_chain_apply {a b : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![a, 1]⟩ ![0] h1 d) (ix2 p q) = d (ix1 p) := by
  refine (broadcastInDim_apply ![0, 1] h2 _ (ix2 p q) (ix2 p (0 : Fin 1)) fun ax => ?_).trans
    (broadcastInDim_apply ![0] h1 d (ix2 p (0 : Fin 1)) (ix1 p) fun ax => ?_)
  · match ax with
    | ⟨0, _⟩ =>
      show p.val = if a = 1 then 0 else p.val
      split
      · have := p.isLt; omega
      · rfl
    | ⟨1, _⟩ =>
      show (0 : ℕ) = if (1 : ℕ) = 1 then 0 else q.val
      rw [if_pos rfl]
  · match ax with
    | ⟨0, _⟩ =>
      show p.val = if a = 1 then 0 else p.val
      split
      · have := p.isLt; omega
      · rfl

/-- A vector kept as a row and spread down the rows reads, at `(p, q)`, the vector at `q`. -/
theorem bcast_row_chain_apply {a b : ℕ} (v : (⟨1, ![b]⟩ : Shape).Idx → α)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- An `a × 1` column spread over `b` columns reads, at `(p, q)`, the column's entry of row `p`. -/
theorem bcast_col_spread_apply {a b : ℕ} (v : (⟨2, ![a, 1]⟩ : Shape).Idx → α)
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 v (ix2 p q) = v (ix2 p (0 : Fin 1)) := by
  refine broadcastInDim_apply ![0, 1] h2 v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A length-`a` vector kept as an `a × 1` column reads, at `(p, u)`, the vector at `p`. -/
theorem bcast_vec_col_apply {a : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (p : Fin a) (u : Fin 1) :
    broadcastInDim ⟨2, ![a, 1]⟩ ![0] h1 d (ix2 p u) = d (ix1 p) := by
  refine broadcastInDim_apply ![0] h1 d (ix2 p u) (ix1 p) fun ax => ?_
  match ax with
  | ⟨0, _⟩ =>
    show p.val = if a = 1 then 0 else p.val
    split
    · have := p.isLt; omega
    · rfl

/-- The host's logarithm of a vector read at an entry. -/
theorem hostLog_apply {s : Shape} {φ : FTy} (x : FVec Ideal s φ) (i : s.Idx) : Host.log x i = Ideal.log (x i) := rfl

/-- The zero word in front of a sum adds nothing. -/
theorem zero_word_add (v : FVec Ideal ⟨0, ![]⟩ .f32) (hv : v = constant (F := Ideal) ⟨0, ![]⟩ .f32 0x00000000#32)
    (j : (⟨0, ![]⟩ : Shape).Idx) (s : EReal) : v j + s = s := by
  subst hv
  show Ideal.ofBits .f32 0x00000000#32 + s = s
  rw [Ideal.ofBits_zero_f32, zero_add]

/-- A scalar spread over any shape reads, at every entry, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- The host's product of an `M × K` table with a `K × N` matrix reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  show FloatOps.dotGeneral (DotDims.plain M K N) prec .single A B (ix2 p q) = _
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.HostForms

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibSageLayer.lean ====
/-
  One layer of a mean-aggregating graph convolution read at an entry, for any sizes.

  For a table `M` of summed neighbour rows, a table `X` of the nodes' own rows (both `n × k`), a count `d` per node,
  two `k × c` weight matrices `Wl`, `Wr` and a bias `b` of length `c`, the layer's entry `(p, q)` is

      (∑ⱼ (M p j / max (d p) one) · Wl j q  +  ∑ⱼ X p j · Wr j q)  +  b q

  over the extended reals (`sageAt`).  It reads `M`, `X` and `d` at row `p` only and the weights and the bias at column
  `q` only (`sageAt_congr`), so a block of rows of the layer is the layer of the blocks of rows.  Two spellings are that
  entry: a kernel body's (the count kept as an `n × 1` column, floored at the word `one` and spread along the row; the
  quotient and the own rows narrowed to a shorter float format, which changes nothing over the extended reals; two
  matrix products accumulated from zero; the bias kept as a `1 × c` row and spread down the rows), and a host
  program's (the count a vector, floored against the spread scalar, kept as a column, spread; plain `dot_general`s; the
  bias vector kept as a row and spread).  Two small layout readings sit beside them: a `1 × b` row spread down the rows,
  and a length-`b` vector re-laid as a `1 × b` row.
-/
import Idealize.ShloMosaic.Lib.Pipeline.Value
import Idealize.ShloMosaic.Lib.ValueIdx
import Idealize.ShloMosaic.PureOps.Ideal.Laws
import proofs.«120822_j84885733638151_2_alg».proof.Proof.LibHostForms
import proofs.«120822_j84885733638151_2_alg».proof.Proof.LibTwoBlocks
import proofs.«120822_j84885733638151_2_alg».proof.Proof.LibRowOps

noncomputable section

open scoped BigOperators

namespace Cert.Lib.SageLayer

open Idealize.ShloMosaic Idealize.ShloMosaic.ValueIdx

/-- Entry `(p, q)` of the layer: the neighbours' mean row times `Wl`, plus the node's own row times `Wr`, plus the bias. -/
def sageAt {n k c : ℕ} (M X : (⟨2, ![n, k]⟩ : Shape).Idx → EReal) (d : Fin n → EReal)
    (Wl Wr : (⟨2, ![k, c]⟩ : Shape).Idx → EReal) (b : Fin c → EReal) (one : EReal) (p : Fin n) (q : Fin c) : EReal :=
  (∑ j : Fin k, Ideal.div (M (ix2 p j)) (max (d p) one) * Wl (ix2 j q) + ∑ j : Fin k, X (ix2 p j) * Wr (ix2 j q)) + b q

/-- The entry depends on the two tables and the count through row `p` only, and on the weights and the bias through
    column `q` only: two sets of operands that agree there give the same entry (the row numbers may differ, as for a
    block of rows against the whole table). -/
theorem sageAt_congr {n n' k c : ℕ} {M X : (⟨2, ![n, k]⟩ : Shape).Idx → EReal} {M' X' : (⟨2, ![n', k]⟩ : Shape).Idx → EReal}
    {d : Fin n → EReal} {d' : Fin n' → EReal} {Wl Wr Wl' Wr' : (⟨2, ![k, c]⟩ : Shape).Idx → EReal} {b b' : Fin c → EReal}
    (one : EReal) {p : Fin n} {p' : Fin n'} (q : Fin c)
    (hM : ∀ j, M (ix2 p j) = M' (ix2 p' j)) (hX : ∀ j, X (ix2 p j) = X' (ix2 p' j)) (hd : d p = d' p')
    (hWl : ∀ j, Wl (ix2 j q) = Wl' (ix2 j q)) (hWr : ∀ j, Wr (ix2 j q) = Wr' (ix2 j q)) (hb : b q = b' q) :
    sageAt M X d Wl Wr b one p q = sageAt M' X' d' Wl' Wr' b' one p' q := by
  unfold sageAt
  rw [hd, hb]
  refine congrArg (· + b' q) (congrArg₂ (· + ·) (Finset.sum_congr rfl fun j _ => ?_) (Finset.sum_congr rfl fun j _ => ?_))
  · rw [hM j, hWl j]
  · rw [hX j, hWr j]

/-- A `1 × b` row spread down `a` rows reads, at `(p, q)`, the row's entry of column `q`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A length-`b` vector re-laid as a `1 × b` row reads, at `(0, q)`, the vector at `q`. -/
theorem shapeCast_vec_row_apply {α : Type} {b : ℕ} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) := by
  refine shapeCast_apply v h (ix2 (0 : Fin 1) q) (ix1 q) ?_
  rw [Shape.rowMajor_val_one, Shape.rowMajor_val_two]
  show q.val = 0 * b + q.val
  omega

/-- THE KERNEL BODY'S SPELLING of the layer on a block of `a` rows, read at `(p, q)`. -/
theorem body_apply {a k c : ℕ} (D : DotDims ⟨2, ![a, k]⟩ ⟨2, ![k, c]⟩ ⟨2, ![a, c]⟩) (hD : D = DotDims.plain a k c)
    (M X : FVec Ideal ⟨2, ![a, k]⟩ .f32) (dcol : FVec Ideal ⟨2, ![a, 1]⟩ .f32) (Wl Wr : FVec Ideal ⟨2, ![k, c]⟩ .f32)
    (brow : FVec Ideal ⟨2, ![1, c]⟩ .f32) (one : BitVec 32) (h16 : (FTy.bf16).bits < (FTy.f32).bits)
    (hb1 : (⟨2, ![a, 1]⟩ : Shape).Broadcasts ⟨2, ![a, k]⟩) (hb2 : (⟨2, ![1, c]⟩ : Shape).Broadcasts ⟨2, ![a, c]⟩)
    (p : Fin a) (q : Fin c) :
    addf (addf
        (matmul D none
          (truncf .bf16 (divf M (broadcastTo ⟨2, ![a, k]⟩ (maximumf dcol (broadcast ⟨2, ![a, 1]⟩ (Scalar.ofBits (F := Ideal) .f32 one))) hb1)) h16)
          (truncf .bf16 Wl h16) (constant ⟨2, ![a, c]⟩ .f32 0x00000000#32))
        (matmul D none (truncf .bf16 X h16) (truncf .bf16 Wr h16) (constant ⟨2, ![a, c]⟩ .f32 0x00000000#32)))
      (broadcastTo ⟨2, ![a, c]⟩ brow hb2) (ix2 p q)
    = sageAt M X (fun r => dcol (ix2 r (0 : Fin 1))) Wl Wr (fun s => brow (ix2 (0 : Fin 1) s)) (Ideal.ofBits .f32 one) p q := by
  show (matmul D none _ _ _ (ix2 p q) + matmul D none _ _ _ (ix2 p q)) + broadcastTo ⟨2, ![a, c]⟩ brow hb2 (ix2 p q) = _
  rw [TwoBlocks.plain_matmul_zero_apply D hD none _ _ p q, TwoBlocks.plain_matmul_zero_apply D hD none _ _ p q,
    broadcastTo_1b_ab_apply brow hb2 p q]
  unfold sageAt
  refine congrArg (· + brow (ix2 (0 : Fin 1) q)) (congrArg₂ (· + ·) (Finset.sum_congr rfl fun j _ => ?_) rfl)
  show Ideal.div (M (ix2 p j)) (broadcastTo ⟨2, ![a, k]⟩ (maximumf dcol (broadcast ⟨2, ![a, 1]⟩ (Scalar.ofBits (F := Ideal) .f32 one))) hb1 (ix2 p j))
      * Wl (ix2 j q) = _
  rw [RowOps.broadcastTo_a1_ab_apply _ hb1 p j]
  rfl

/-- THE HOST PROGRAM'S SPELLING of the layer on whole tables, read at `(p, q)`. -/
theorem host_apply {n k c : ℕ} (D : DotDims ⟨2, ![n, k]⟩ ⟨2, ![k, c]⟩ ⟨2, ![n, c]⟩) (hD : D = DotDims.plain n k c)
    (M X : FVec Ideal ⟨2, ![n, k]⟩ .f32) (d : FVec Ideal ⟨1, ![n]⟩ .f32) (Wl Wr : FVec Ideal ⟨2, ![k, c]⟩ .f32)
    (b : FVec Ideal ⟨1, ![c]⟩ .f32) (one : BitVec 32)
    (h0 : (⟨0, ![]⟩ : Shape).BroadcastsInDim ⟨1, ![n]⟩ (![] : Fin 0 → Fin (⟨1, ![n]⟩ : Shape).rank))
    (h1 : (⟨1, ![n]⟩ : Shape).BroadcastsInDim ⟨2, ![n, 1]⟩ (![0] : Fin 1 → Fin (⟨2, ![n, 1]⟩ : Shape).rank))
    (h2 : (⟨2, ![n, 1]⟩ : Shape).BroadcastsInDim ⟨2, ![n, k]⟩ (![0, 1] : Fin 2 → Fin (⟨2, ![n, k]⟩ : Shape).rank))
    (h3 : (⟨1, ![c]⟩ : Shape).BroadcastsInDim ⟨2, ![1, c]⟩ (![1] : Fin 1 → Fin (⟨2, ![1, c]⟩ : Shape).rank))
    (h4 : (⟨2, ![1, c]⟩ : Shape).BroadcastsInDim ⟨2, ![n, c]⟩ (![0, 1] : Fin 2 → Fin (⟨2, ![n, c]⟩ : Shape).rank))
    (p : Fin n) (q : Fin c) :
    addf (addf
        (Host.dotGeneral D none
          (Host.divf (F := Ideal) M (broadcastInDim ⟨2, ![n, k]⟩ ![0, 1] h2 (broadcastInDim ⟨2, ![n, 1]⟩ ![0] h1
            (maximumf d (broadcastInDim ⟨1, ![n]⟩ ![] h0 (constant (F := Ideal) ⟨0, ![]⟩ .f32 one)))))) Wl)
        (Host.dotGeneral D none X Wr))
      (broadcastInDim ⟨2, ![n, c]⟩ ![0, 1] h4 (broadcastInDim ⟨2, ![1, c]⟩ ![1] h3 b)) (ix2 p q)
    = sageAt M X (fun r => d (ix1 r)) Wl Wr (fun s => b (ix1 s)) (Ideal.ofBits .f32 one) p q := by
  show (Host.dotGeneral D none _ Wl (ix2 p q) + Host.dotGeneral D none X Wr (ix2 p q))
      + broadcastInDim ⟨2, ![n, c]⟩ ![0, 1] h4 (broadcastInDim ⟨2, ![1, c]⟩ ![1] h3 b) (ix2 p q) = _
  rw [HostForms.plain_dotGeneral_apply D hD none _ Wl p q, HostForms.plain_dotGeneral_apply D hD none X Wr p q,
    HostForms.bcast_row_chain_apply b h3 h4 p q]
  unfold sageAt
  refine congrArg (· + b (ix1 q)) (congrArg₂ (· + ·) (Finset.sum_congr rfl fun j _ => ?_) rfl)
  show Ideal.div (M (ix2 p j)) (broadcastInDim ⟨2, ![n, k]⟩ ![0, 1] h2 (broadcastInDim ⟨2, ![n, 1]⟩ ![0] h1
      (maximumf d (broadcastInDim ⟨1, ![n]⟩ ![] h0 (constant (F := Ideal) ⟨0, ![]⟩ .f32 one)))) (ix2 p j)) * Wl (ix2 j q) = _
  rw [HostForms.bcast_col_chain_apply _ h1 h2 p j]
  show Ideal.div (M (ix2 p j)) (max (d (ix1 p)) (broadcastInDim ⟨1, ![n]⟩ ![] h0 (constant (F := Ideal) ⟨0, ![]⟩ .f32 one) (ix1 p)))
      * Wl (ix2 j q) = _
  rw [HostForms.bcast_scalar_apply _ h0 (ix1 p)]
  rfl

end Cert.Lib.SageLayer

end
-- ==== Proof.Spec.lean ====
/-
  The two layers of the network as functions of whole tables, over the extended reals, at this network's sizes:
  100000 nodes, 128 features in, 128 hidden features, 16 classes out.

  `hidden M X d Wl Wr b` is the first layer followed by the rectifier: entry `(r, q)` is the larger of the layer's
  entry and the zero word.  `scores M X d Wl Wr b` is the second layer, with no rectifier.  In both, `M` is the table
  of summed neighbour rows, `X` the nodes' own rows, `d` the neighbour count per node (floored at the word for one
  inside the layer), `Wl`, `Wr` the weights and `b` the bias (Proof/LibSageLayer.lean, `sageAt`).
-/
import proofs.«120822_j84885733638151_2_alg».proof.Proof.LibSageLayer

noncomputable section

namespace Cert.Sage

open Idealize.ShloMosaic Idealize.ShloMosaic.ValueIdx Cert.Lib.SageLayer

/-- The f32 word of 1.0 read over the extended reals (never evaluated: both programs carry the same word). -/
abbrev oneW : EReal := Ideal.ofBits .f32 0x3F800000#32
/-- The f32 zero word read over the extended reals. -/
abbrev zeroW : EReal := Ideal.ofBits .f32 0x00000000#32

/-- The first layer and the rectifier: the hidden features of every node. -/
def hidden (M X : (⟨2, ![100000, 128]⟩ : Shape).Idx → EReal) (d : Fin 100000 → EReal)
    (Wl Wr : (⟨2, ![128, 128]⟩ : Shape).Idx → EReal) (b : Fin 128 → EReal) : (⟨2, ![100000, 128]⟩ : Shape).Idx → EReal :=
  fun i => max (sageAt M X d Wl Wr b oneW (i 0) (i 1)) zeroW

/-- The second layer: the class scores of every node. -/
def scores (M X : (⟨2, ![100000, 128]⟩ : Shape).Idx → EReal) (d : Fin 100000 → EReal)
    (Wl Wr : (⟨2, ![128, 16]⟩ : Shape).Idx → EReal) (b : Fin 16 → EReal) : (⟨2, ![100000, 16]⟩ : Shape).Idx → EReal :=
  fun i => sageAt M X d Wl Wr b oneW (i 0) (i 1)

theorem hidden_apply (M X : (⟨2, ![100000, 128]⟩ : Shape).Idx → EReal) (d : Fin 100000 → EReal)
    (Wl Wr : (⟨2, ![128, 128]⟩ : Shape).Idx → EReal) (b : Fin 128 → EReal) (r : Fin 100000) (q : Fin 128) :
    hidden M X d Wl Wr b (ix2 r q) = max (sageAt M X d Wl Wr b oneW r q) zeroW := rfl

theorem scores_apply (M X : (⟨2, ![100000, 128]⟩ : Shape).Idx → EReal) (d : Fin 100000 → EReal)
    (Wl Wr : (⟨2, ![128, 16]⟩ : Shape).Idx → EReal) (b : Fin 16 → EReal) (r : Fin 100000) (q : Fin 16) :
    scores M X d Wl Wr b (ix2 r q) = sageAt M X d Wl Wr b oneW r q := rfl

end Cert.Sage

end
-- ==== Proof.Region0.lean ====
/-
  The first pallas_call: what its result table holds when the region is left, as one function of the tables the
  region finds on entry.

  The region walks 20 blocks of 5000 rows.  At block `t` the body reads rows `5000 t … 5000 t + 4999` of the summed
  neighbour rows, of the nodes' own rows and of the count column, the two whole weight matrices and the bias row, and
  writes back rows `5000 t … 5000 t + 4999` of the result.  The layer reads its tables one row at a time, so the
  written block is the block of the whole-table function `Cert.Sage.hidden`; the 20 blocks tile the 100000 rows, so the
  table ends holding `hidden` of the entry tables.
-/
import proofs.«120822_j84885733638151_2_alg».proof.Proof.Gen.KernelIdeal.Frame
import proofs.«120822_j84885733638151_2_alg».proof.Proof.Spec
import Idealize.ShloMosaic.Lib.Pipeline.Value
import Idealize.ShloMosaic.Lib.ValueIdx

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Lib.SageLayer Cert.Sage

theorem hz : (![0, 0] : Fin 2 → Nat) = fun _ => 0 := funext fun a => by fin_cases a <;> rfl

/-- The body's stored value at `(p, q)` of the block: the rectified layer entry of the loaded blocks. -/
theorem stored_apply (x2 : FVec Ideal S5000x1 .f32) (x0 x1 : FVec Ideal S5000x128 .f32) (x3 x4 : FVec Ideal S128x128 .f32)
    (x5 : FVec Ideal S1x128 .f32) (p : Fin 5000) (q : Fin 128) :
    k0_pay1 (F := Ideal) x2 x0 x1 x3 x4 x5 (ix2 p q)
      = max (sageAt x0 x1 (fun r => x2 (ix2 r (0 : Fin 1))) x3 x4 (fun s => x5 (ix2 (0 : Fin 1) s)) oneW p q) zeroW := by
  unfold k0_pay1
  rw [shapeCast_self, shapeCast_self, shapeCast_self]
  exact congrArg (max · zeroW) (body_apply _ rfl x0 x1 x2 x3 x4 x5 0x3F800000#32 _ _ _ p q)

/-- The printed index maps over the 20 points: the row-blocked windows are at block `(t, 0)`, the weights and the bias
    at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

section
variable (V : (c : Dev nD) → (b : Ref sig .tc) → Buf (Elt Ideal) ((c : Thread nD τ).loc b))

/-- The hidden features of the tables the region finds: what its result table ends holding (`final`). -/
def result (c : Dev nD) : Buf (Elt Ideal) ((c : Thread nD τ).loc main_v20) :=
  hidden (V c main_v18) (V c main_arg0) (fun r => (V c main_v8 : S100000x1.Idx → EReal) (ix2 r (0 : Fin 1)))
    (V c main_arg2) (V c main_arg3) (fun s => (V c main_v19 : S1x128.Idx → EReal) (ix2 (0 : Fin 1) s))

/-- Block `t` of the summed neighbour rows: row `p` of the block is row `5000 t + p` of the table. -/
theorem blk_msg (c : Dev nD) (t : Fin cfg0.N) (p : Fin 5000) (j : Fin 128) (r : Fin 100000) (hr : r.val = 5000 * t.val + p.val) :
    (iblk0 V c 0 t : S5000x128.Idx → EReal) (ix2 p j) = (V c main_v18 : S100000x128.Idx → EReal) (ix2 r j) := by
  obtain ⟨⟨e0, e1⟩, -⟩ := idx_facts t
  unfold iblk0
  rw [View.read_apply]
  show (V c main_v18 : S100000x128.Idx → EReal) _ = _
  congr 1
  funext a
  apply Fin.ext
  match a with
  | ⟨0, _⟩ => show win0_0.index t (0 : Fin 2) * 5000 + 1 * p.val = r.val; omega
  | ⟨1, _⟩ => show win0_0.index t (1 : Fin 2) * 128 + 1 * j.val = j.val; omega

/-- Block `t` of the nodes' own rows. -/
theorem blk_own (c : Dev nD) (t : Fin cfg0.N) (p : Fin 5000) (j : Fin 128) (r : Fin 100000) (hr : r.val = 5000 * t.val + p.val) :
    (iblk0 V c 1 t : S5000x128.Idx → EReal) (ix2 p j) = (V c main_arg0 : S100000x128.Idx → EReal) (ix2 r j) := by
  obtain ⟨-, ⟨e0, e1⟩, -⟩ := idx_facts t
  unfold iblk0
  rw [View.read_apply]
  show (V c main_arg0 : S100000x128.Idx → EReal) _ = _
  congr 1
  funext a
  apply Fin.ext
  match a with
  | ⟨0, _⟩ => show win0_1.index t (0 : Fin 2) * 5000 + 1 * p.val = r.val; omega
  | ⟨1, _⟩ => show win0_1.index t (1 : Fin 2) * 128 + 1 * j.val = j.val; omega

/-- Block `t` of the count column. -/
theorem blk_cnt (c : Dev nD) (t : Fin cfg0.N) (p : Fin 5000) (r : Fin 100000) (hr : r.val = 5000 * t.val + p.val) :
    (iblk0 V c 2 t : S5000x1.Idx → EReal) (ix2 p (0 : Fin 1)) = (V c main_v8 : S100000x1.Idx → EReal) (ix2 r (0 : Fin 1)) := by
  obtain ⟨-, -, ⟨e0, e1⟩, -⟩ := idx_facts t
  unfold iblk0
  rw [View.read_apply]
  show (V c main_v8 : S100000x1.Idx → EReal) _ = _
  congr 1
  funext a
  apply Fin.ext
  match a with
  | ⟨0, _⟩ => show win0_2.index t (0 : Fin 2) * 5000 + 1 * p.val = r.val; omega
  | ⟨1, _⟩ => show win0_2.index t (1 : Fin 2) * 1 + 1 * 0 = 0; omega

/-- The weight and bias windows hold their whole arrays at every point. -/
theorem blk_wl (c : Dev nD) (t : Fin cfg0.N) (j : Fin 128) (q : Fin 128) :
    (iblk0 V c 3 t : S128x128.Idx → EReal) (ix2 j q) = (V c main_arg2 : S128x128.Idx → EReal) (ix2 j q) := by
  obtain ⟨-, -, -, ⟨e0, e1⟩, -⟩ := idx_facts t
  unfold iblk0
  rw [View.read_apply]
  show (V c main_arg2 : S128x128.Idx → EReal) _ = _
  congr 1
  funext a
  apply Fin.ext
  match a with
  | ⟨0, _⟩ => show win0_3.index t (0 : Fin 2) * 128 + 1 * j.val = j.val; omega
  | ⟨1, _⟩ => show win0_3.index t (1 : Fin 2) * 128 + 1 * q.val = q.val; omega

theorem blk_wr (c : Dev nD) (t : Fin cfg0.N) (j : Fin 128) (q : Fin 128) :
    (iblk0 V c 4 t : S128x128.Idx → EReal) (ix2 j q) = (V c main_arg3 : S128x128.Idx → EReal) (ix2 j q) := by
  obtain ⟨-, -, -, -, ⟨e0, e1⟩, -⟩ := idx_facts t
  unfold iblk0
  rw [View.read_apply]
  show (V c main_arg3 : S128x128.Idx → EReal) _ = _
  congr 1
  funext a
  apply Fin.ext
  match a with
  | ⟨0, _⟩ => show win0_4.index t (0 : Fin 2) * 128 + 1 * j.val = j.val; omega
  | ⟨1, _⟩ => show win0_4.index t (1 : Fin 2) * 128 + 1 * q.val = q.val; omega

theorem blk_bias (c : Dev nD) (t : Fin cfg0.N) (q : Fin 128) :
    (iblk0 V c 5 t : S1x128.Idx → EReal) (ix2 (0 : Fin 1) q) = (V c main_v19 : S1x128.Idx → EReal) (ix2 (0 : Fin 1) q) := by
  obtain ⟨-, -, -, -, -, ⟨e0, e1⟩, -⟩ := idx_facts t
  unfold iblk0
  rw [View.read_apply]
  show (V c main_v19 : S1x128.Idx → EReal) _ = _
  congr 1
  funext a
  apply Fin.ext
  match a with
  | ⟨0, _⟩ => show win0_5.index t (0 : Fin 2) * 1 + 1 * 0 = 0; omega
  | ⟨1, _⟩ => show win0_5.index t (1 : Fin 2) * 128 + 1 * q.val = q.val; omega

/-- WHAT POINT `t` WRITES BACK is block `t` of `result`: the layer reads its tables one row at a time. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  obtain ⟨-, -, -, -, -, -, ⟨e0, e1⟩⟩ := idx_facts t
  have hN : t.val < 20 := by have h := t.isLt; have e : cfg0.N = 20 := N_0; omega
  funext j
  obtain ⟨p, q, rfl⟩ : ∃ (p : Fin 5000) (q : Fin 128), j = ix2 p q := ⟨j 0, j 1, eq_ix2 j⟩
  have hp := p.isLt
  have he : ((cfg0.win 6).blk t).view.emb (ix2 p q) = ix2 (⟨5000 * t.val + p.val, by omega⟩ : Fin 100000) q := by
    funext a
    apply Fin.ext
    match a with
    | ⟨0, _⟩ => show win0_6.index t (0 : Fin 2) * 5000 + 1 * p.val = 5000 * t.val + p.val; omega
    | ⟨1, _⟩ => show win0_6.index t (1 : Fin 2) * 128 + 1 * q.val = q.val; omega
  show k0_pay1 (F := Ideal) (iblk0 V c 2 t) (iblk0 V c 0 t) (iblk0 V c 1 t) (iblk0 V c 3 t) (iblk0 V c 4 t) (iblk0 V c 5 t) (ix2 p q)
      = result V c (((cfg0.win 6).blk t).view.emb (ix2 p q))
  rw [he]
  refine (stored_apply (iblk0 V c 2 t) (iblk0 V c 0 t) (iblk0 V c 1 t) (iblk0 V c 3 t) (iblk0 V c 4 t) (iblk0 V c 5 t) p q).trans ?_
  unfold result
  rw [hidden_apply]
  exact congrArg (max · zeroW) (sageAt_congr oneW q (fun j => blk_msg V c t p j _ rfl) (fun j => blk_own V c t p j _ rfl)
    (blk_cnt V c t p _ rfl) (fun j => blk_wl V c t j q) (fun j => blk_wr V c t j q) (blk_bias V c t q))

/-- An index of the table is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v20).slice (win0_6.rect t)).set ↔ _
  rw [View.set_slice_whole, Rect.mem_set_unit]
  exact Iff.rfl

/-- The 20 blocks of 5000 rows tile the table: row `r` is in block `r / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, ⟨e0, e1⟩⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE RESULT TABLE when the region is left: the hidden features of the entry tables. -/
theorem final (c : Dev nD) : (dat0 V c).arrAt 6 cfg0.N = result V c :=
  (dat0 V c).arrAt_eq_of_cover 6 (result V c) (fun t _ => flushed_eq V c t) cover

end

end Cert.KernelIdeal.Region0

end
-- ==== Proof.Region1.lean ====
/-
  The second pallas_call: what its result table holds when the region is left, as one function of the tables the
  region finds on entry.

  As in the first call the region walks 20 blocks of 5000 rows; here the weights are `128 × 16`, the bias row is
  `1 × 16`, the own rows are the hidden features, and nothing is rectified.  The written block is the block of the
  whole-table function `Cert.Sage.scores`, and the 20 blocks tile the 100000 rows, so the table ends holding `scores`
  of the entry tables.
-/
import proofs.«120822_j84885733638151_2_alg».proof.Proof.Gen.KernelIdeal.Frame
import proofs.«120822_j84885733638151_2_alg».proof.Proof.Spec
import Idealize.ShloMosaic.Lib.Pipeline.Value
import Idealize.ShloMosaic.Lib.ValueIdx

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Lib.SageLayer Cert.Sage

theorem hz : (![0, 0] : Fin 2 → Nat) = fun _ => 0 := funext fun a => by fin_cases a <;> rfl

/-- The body's stored value at `(p, q)` of the block: the layer entry of the loaded blocks. -/
theorem stored_apply (x2 : FVec Ideal S5000x1 .f32) (x0 x1 : FVec Ideal S5000x128 .f32) (x3 x4 : FVec Ideal S128x16 .f32)
    (x5 : FVec Ideal S1x16 .f32) (p : Fin 5000) (q : Fin 16) :
    k1_pay1 (F := Ideal) x2 x0 x1 x3 x4 x5 (ix2 p q)
      = sageAt x0 x1 (fun r => x2 (ix2 r (0 : Fin 1))) x3 x4 (fun s => x5 (ix2 (0 : Fin 1) s)) oneW p q := by
  unfold k1_pay1
  rw [shapeCast_self, shapeCast_self, shapeCast_self, shapeCast_self]
  exact body_apply _ rfl x0 x1 x2 x3 x4 x5 0x3F800000#32 _ _ _ p q

/-- The printed index maps over the 20 points: the row-blocked windows are at block `(t, 0)`, the weights and the bias
    at block `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

section
variable (V : (c : Dev nD) → (b : Ref sig .tc) → Buf (Elt Ideal) ((c : Thread nD τ).loc b))

/-- The class scores of the tables the region finds: what its result table ends holding (`final`). -/
def result (c : Dev nD) : Buf (Elt Ideal) ((c : Thread nD τ).loc main_v32) :=
  scores (V c main_v30) (V c main_v20) (fun r => (V c main_v8 : S100000x1.Idx → EReal) (ix2 r (0 : Fin 1)))
    (V c main_arg5) (V c main_arg6) (fun s => (V c main_v31 : S1x16.Idx → EReal) (ix2 (0 : Fin 1) s))

/-- Block `t` of the summed neighbour rows: row `p` of the block is row `5000 t + p` of the table. -/
theorem blk_msg (c : Dev nD) (t : Fin cfg1.N) (p : Fin 5000) (j : Fin 128) (r : Fin 100000) (hr : r.val = 5000 * t.val + p.val) :
    (iblk1 V c 0 t : S5000x128.Idx → EReal) (ix2 p j) = (V c main_v30 : S100000x128.Idx → EReal) (ix2 r j) := by
  obtain ⟨⟨e0, e1⟩, -⟩ := idx_facts t
  unfold iblk1
  rw [View.read_apply]
  show (V c main_v30 : S100000x128.Idx → EReal) _ = _
  congr 1
  funext a
  apply Fin.ext
  match a with
  | ⟨0, _⟩ => show win1_0.index t (0 : Fin 2) * 5000 + 1 * p.val = r.val; omega
  | ⟨1, _⟩ => show win1_0.index t (1 : Fin 2) * 128 + 1 * j.val = j.val; omega

/-- Block `t` of the nodes' own rows. -/
theorem blk_own (c : Dev nD) (t : Fin cfg1.N) (p : Fin 5000) (j : Fin 128) (r : Fin 100000) (hr : r.val = 5000 * t.val + p.val) :
    (iblk1 V c 1 t : S5000x128.Idx → EReal) (ix2 p j) = (V c main_v20 : S100000x128.Idx → EReal) (ix2 r j) := by
  obtain ⟨-, ⟨e0, e1⟩, -⟩ := idx_facts t
  unfold iblk1
  rw [View.read_apply]
  show (V c main_v20 : S100000x128.Idx → EReal) _ = _
  congr 1
  funext a
  apply Fin.ext
  match a with
  | ⟨0, _⟩ => show win1_1.index t (0 : Fin 2) * 5000 + 1 * p.val = r.val; omega
  | ⟨1, _⟩ => show win1_1.index t (1 : Fin 2) * 128 + 1 * j.val = j.val; omega

/-- Block `t` of the count column. -/
theorem blk_cnt (c : Dev nD) (t : Fin cfg1.N) (p : Fin 5000) (r : Fin 100000) (hr : r.val = 5000 * t.val + p.val) :
    (iblk1 V c 2 t : S5000x1.Idx → EReal) (ix2 p (0 : Fin 1)) = (V c main_v8 : S100000x1.Idx → EReal) (ix2 r (0 : Fin 1)) := by
  obtain ⟨-, -, ⟨e0, e1⟩, -⟩ := idx_facts t
  unfold iblk1
  rw [View.read_apply]
  show (V c main_v8 : S100000x1.Idx → EReal) _ = _
  congr 1
  funext a
  apply Fin.ext
  match a with
  | ⟨0, _⟩ => show win1_2.index t (0 : Fin 2) * 5000 + 1 * p.val = r.val; omega
  | ⟨1, _⟩ => show win1_2.index t (1 : Fin 2) * 1 + 1 * 0 = 0; omega

/-- The weight and bias windows hold their whole arrays at every point. -/
theorem blk_wl (c : Dev nD) (t : Fin cfg1.N) (j : Fin 128) (q : Fin 16) :
    (iblk1 V c 3 t : S128x16.Idx → EReal) (ix2 j q) = (V c main_arg5 : S128x16.Idx → EReal) (ix2 j q) := by
  obtain ⟨-, -, -, ⟨e0, e1⟩, -⟩ := idx_facts t
  unfold iblk1
  rw [View.read_apply]
  show (V c main_arg5 : S128x16.Idx → EReal) _ = _
  congr 1
  funext a
  apply Fin.ext
  match a with
  | ⟨0, _⟩ => show win1_3.index t (0 : Fin 2) * 128 + 1 * j.val = j.val; omega
  | ⟨1, _⟩ => show win1_3.index t (1 : Fin 2) * 16 + 1 * q.val = q.val; omega

theorem blk_wr (c : Dev nD) (t : Fin cfg1.N) (j : Fin 128) (q : Fin 16) :
    (iblk1 V c 4 t : S128x16.Idx → EReal) (ix2 j q) = (V c main_arg6 : S128x16.Idx → EReal) (ix2 j q) := by
  obtain ⟨-, -, -, -, ⟨e0, e1⟩, -⟩ := idx_facts t
  unfold iblk1
  rw [View.read_apply]
  show (V c main_arg6 : S128x16.Idx → EReal) _ = _
  congr 1
  funext a
  apply Fin.ext
  match a with
  | ⟨0, _⟩ => show win1_4.index t (0 : Fin 2) * 128 + 1 * j.val = j.val; omega
  | ⟨1, _⟩ => show win1_4.index t (1 : Fin 2) * 16 + 1 * q.val = q.val; omega

theorem blk_bias (c : Dev nD) (t : Fin cfg1.N) (q : Fin 16) :
    (iblk1 V c 5 t : S1x16.Idx → EReal) (ix2 (0 : Fin 1) q) = (V c main_v31 : S1x16.Idx → EReal) (ix2 (0 : Fin 1) q) := by
  obtain ⟨-, -, -, -, -, ⟨e0, e1⟩, -⟩ := idx_facts t
  unfold iblk1
  rw [View.read_apply]
  show (V c main_v31 : S1x16.Idx → EReal) _ = _
  congr 1
  funext a
  apply Fin.ext
  match a with
  | ⟨0, _⟩ => show win1_5.index t (0 : Fin 2) * 1 + 1 * 0 = 0; omega
  | ⟨1, _⟩ => show win1_5.index t (1 : Fin 2) * 16 + 1 * q.val = q.val; omega

/-- WHAT POINT `t` WRITES BACK is block `t` of `result`: the layer reads its tables one row at a time. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x16) hz,
    View.ld_unit_zero (S := S1x16) hz]
  obtain ⟨-, -, -, -, -, -, ⟨e0, e1⟩⟩ := idx_facts t
  have hN : t.val < 20 := by have h := t.isLt; have e : cfg1.N = 20 := N_1; omega
  funext j
  obtain ⟨p, q, rfl⟩ : ∃ (p : Fin 5000) (q : Fin 16), j = ix2 p q := ⟨j 0, j 1, eq_ix2 j⟩
  have hp := p.isLt
  have he : ((cfg1.win 6).blk t).view.emb (ix2 p q) = ix2 (⟨5000 * t.val + p.val, by omega⟩ : Fin 100000) q := by
    funext a
    apply Fin.ext
    match a with
    | ⟨0, _⟩ => show win1_6.index t (0 : Fin 2) * 5000 + 1 * p.val = 5000 * t.val + p.val; omega
    | ⟨1, _⟩ => show win1_6.index t (1 : Fin 2) * 16 + 1 * q.val = q.val; omega
  show k1_pay1 (F := Ideal) (iblk1 V c 2 t) (iblk1 V c 0 t) (iblk1 V c 1 t) (iblk1 V c 3 t) (iblk1 V c 4 t) (iblk1 V c 5 t) (ix2 p q)
      = result V c (((cfg1.win 6).blk t).view.emb (ix2 p q))
  rw [he]
  refine (stored_apply (iblk1 V c 2 t) (iblk1 V c 0 t) (iblk1 V c 1 t) (iblk1 V c 3 t) (iblk1 V c 4 t) (iblk1 V c 5 t) p q).trans ?_
  unfold result
  rw [scores_apply]
  exact sageAt_congr oneW q (fun j => blk_msg V c t p j _ rfl) (fun j => blk_own V c t p j _ rfl)
    (blk_cnt V c t p _ rfl) (fun j => blk_wl V c t j q) (fun j => blk_wr V c t j q) (blk_bias V c t q)

/-- An index of the table is in point `t`'s block iff each coordinate is in the block's range on its axis. -/
theorem mem_blk (t : Fin cfg1.N) (i : S100000x16.Idx) :
    i ∈ ((cfg1.win 6).blk t).view.set ↔ ∀ a : Fin 2, win1_6.index t a * S5000x16.size a ≤ (i a).val
      ∧ (i a).val < win1_6.index t a * S5000x16.size a + S5000x16.size a := by
  show i ∈ ((View.whole main_v32).slice (win1_6.rect t)).set ↔ _
  rw [View.set_slice_whole, Rect.mem_set_unit]
  exact Iff.rfl

/-- The 20 blocks of 5000 rows tile the table: row `r` is in block `r / 5000`. -/
theorem cover (i : S100000x16.Idx) : ∃ t : Fin cfg1.N, (cfg1.win 6).flush t = true ∧ i ∈ ((cfg1.win 6).blk t).view.set := by
  have hi0 : (i 0).val < 100000 := (i 0).isLt
  have hi1 : (i 1).val < 16 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, ⟨e0, e1⟩⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 16 ≤ (i 1).val ∧ (i 1).val < win1_6.index t (1 : Fin 2) * 16 + 16
    omega

/-- THE RESULT TABLE when the region is left: the class scores of the entry tables. -/
theorem final (c : Dev nD) : (dat1 V c).arrAt 6 cfg1.N = result V c :=
  (dat1 V c).arrAt_eq_of_cover 6 (result V c) (fun t _ => flushed_eq V c t) cover

end

end Cert.KernelIdeal.Region1

end
-- ==== Proof.KernelValue.lean ====
/-
  The kernel program's result table as one function of its eight argument arrays, over the extended reals.

  Before the first pallas_call the host builds, from the edge table, the source and destination node of every edge,
  the table of summed neighbour rows (the rows of `x` gathered at the sources and added up at the destinations) and
  the neighbour count of every node (ones added up at the destinations), and re-lays the bias as a row.  The first
  call leaves the hidden features `h`.  Between the calls the host builds the summed neighbour rows of `h` the same
  way, and the second call leaves the class scores.  The gather and the scatter are carried as the two functions
  `agg` and `deg`, never opened.
-/
import proofs.«120822_j84885733638151_2_alg».proof.Proof.Gen.KernelIdeal.Frame
import proofs.«120822_j84885733638151_2_alg».proof.Proof.Region0
import proofs.«120822_j84885733638151_2_alg».proof.Proof.Region1
import Idealize.ShloMosaic.Lib.StableHlo.Run

noncomputable section

namespace Cert.KernelIdeal.KValue

open Idealize.ShloMosaic Idealize.ShloMosaic.TcCoe Idealize.SL.Sem Idealize.ShloMosaic.ValueIdx Idealize.ShloMosaic.StableHlo
open Cert.KernelIdeal Cert.KernelIdeal.Gen Cert.Lib.SageLayer Cert.Lib.HostForms Cert.Sage

/-- The source node of every edge: row 0 of the edge table. -/
def srcOf (ei : IVec S2x640000 32) : IVec S640000 32 :=
  shapeCast S640000 (extractStridedSlice S1x640000 ![0, 0] ei slices_S2x640000_S1x640000_0_0) shapeCasts_S1x640000_S640000

/-- The destination node of every edge: row 1 of the edge table. -/
def dstOf (ei : IVec S2x640000 32) : IVec S640000 32 :=
  shapeCast S640000 (extractStridedSlice S1x640000 ![1, 0] ei slices_S2x640000_S1x640000_1_0) shapeCasts_S1x640000_S640000

/-- The summed neighbour rows of a feature table: its rows gathered at the edges' sources (a negative source counted
    from the end) and added up at the edges' destinations, from zero. -/
def agg (src dst : IVec S640000 32) (feat : FVec Ideal S100000x128 .f32) : FVec Ideal S100000x128 .f32 :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0 dst)
    (Host.gather gather_S100000x128_S640000x1_S640000x128_1_0_n_n_0_1_1128 feat
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32))) src)))

/-- The neighbour count of every node: ones added up at the edges' destinations, from zero. -/
def deg (dst : IVec S640000 32) : FVec Ideal S100000 .f32 :=
  Host.scatterAdd (F := Ideal) scatter_S100000_S640000x1_S640000_n_0_0_1
    (broadcastInDim S100000 ![] bcast_S_S100000 (constant (F := Ideal) S_ .f32 0x00000000#32))
    (broadcastInDim S640000x1 ![0] bcast_S640000_S640000x1_0 dst)
    (broadcastInDim S640000 ![] bcast_S_S640000 (constant (F := Ideal) S_ .f32 0x3F800000#32))

variable (m : (ℓ : Loc nD τ sig) → Buf (Elt Ideal) ℓ) (ρ : Dev nD → PrngReg)

/-! ## What the first region finds -/

/-- Reads one buffer after the first stretch of host operations, down to the launch memory. -/
local macro "read_stretch0" : tactic =>
  `(tactic| (show StableHlo.after hostOps0 (W0 _ _ _) _ = _; dsimp only [hostOps0]; after_results_simp; try rfl))
/-- Reads one buffer after the second stretch of host operations, down to the first region's exit contents. -/
local macro "read_stretch1" : tactic =>
  `(tactic| (show StableHlo.after hostOps1 (W2 _ _ _) _ = _; dsimp only [hostOps1]; after_results_simp; try rfl))

theorem W1_src (c : Dev nD) : (W1 m ρ c (Proc.devRef .tc main_v1) : S640000.Idx → BitVec 32)
    = srcOf (m ((c : Thread nD τ).loc main_arg1)) := by read_stretch0
theorem W1_dst (c : Dev nD) : (W1 m ρ c (Proc.devRef .tc main_v3) : S640000.Idx → BitVec 32)
    = dstOf (m ((c : Thread nD τ).loc main_arg1)) := by read_stretch0
set_option maxHeartbeats 4000000 in
theorem W1_msg (c : Dev nD) : (W1 m ρ c (Proc.devRef .tc main_v18) : S100000x128.Idx → EReal)
    = agg (srcOf (m ((c : Thread nD τ).loc main_arg1))) (dstOf (m ((c : Thread nD τ).loc main_arg1))) (m ((c : Thread nD τ).loc main_arg0)) := by
  read_stretch0
theorem W1_cnt (c : Dev nD) : (W1 m ρ c (Proc.devRef .tc main_v8) : S100000x1.Idx → EReal)
    = broadcastInDim S100000x1 ![0] bcast_S100000_S100000x1_0 (deg (dstOf (m ((c : Thread nD τ).loc main_arg1)))) := by read_stretch0
theorem W1_bias (c : Dev nD) : (W1 m ρ c (Proc.devRef .tc main_v19) : S1x128.Idx → EReal)
    = shapeCast S1x128 (m ((c : Thread nD τ).loc main_arg4)) shapeCasts_S128_S1x128 := by read_stretch0
theorem W1_arg0 (c : Dev nD) : W1 m ρ c (Proc.devRef .tc main_arg0) = m ((c : Thread nD τ).loc main_arg0) := by read_stretch0
theorem W1_arg2 (c : Dev nD) : W1 m ρ c (Proc.devRef .tc main_arg2) = m ((c : Thread nD τ).loc main_arg2) := by read_stretch0
theorem W1_arg3 (c : Dev nD) : W1 m ρ c (Proc.devRef .tc main_arg3) = m ((c : Thread nD τ).loc main_arg3) := by read_stretch0
theorem W1_arg5 (c : Dev nD) : W1 m ρ c (Proc.devRef .tc main_arg5) = m ((c : Thread nD τ).loc main_arg5) := by read_stretch0
theorem W1_arg6 (c : Dev nD) : W1 m ρ c (Proc.devRef .tc main_arg6) = m ((c : Thread nD τ).loc main_arg6) := by read_stretch0
theorem W1_arg7 (c : Dev nD) : W1 m ρ c (Proc.devRef .tc main_arg7) = m ((c : Thread nD τ).loc main_arg7) := by read_stretch0

/-! ## The two layers as functions of the argument arrays -/

/-- The hidden features: the first layer and the rectifier of the summed rows of `x`, of `x` and of the counts. -/
def hiddenOf (x : FVec Ideal S100000x128 .f32) (ei : IVec S2x640000 32) (W1l W1r : FVec Ideal S128x128 .f32) (b1 : FVec Ideal S128 .f32) :
    FVec Ideal S100000x128 .f32 :=
  hidden (agg (srcOf ei) (dstOf ei) x) x (fun r => deg (dstOf ei) (ix1 r)) W1l W1r (fun s => b1 (ix1 s))

/-- The class scores: the second layer of the summed hidden rows, of the hidden rows and of the counts. -/
def outOf (x : FVec Ideal S100000x128 .f32) (ei : IVec S2x640000 32) (W1l W1r : FVec Ideal S128x128 .f32) (b1 : FVec Ideal S128 .f32)
    (W2l W2r : FVec Ideal S128x16 .f32) (b2 : FVec Ideal S16 .f32) : FVec Ideal S100000x16 .f32 :=
  scores (agg (srcOf ei) (dstOf ei) (hiddenOf x ei W1l W1r b1)) (hiddenOf x ei W1l W1r b1) (fun r => deg (dstOf ei) (ix1 r))
    W2l W2r (fun s => b2 (ix1 s))

/-- The first region leaves the hidden features of the arguments. -/
theorem region0_result (c : Dev nD) : Region0.result (V1 m ρ) c
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) := by
  unfold Region0.result hiddenOf
  show hidden (W1 m ρ c (Proc.devRef .tc main_v18)) (W1 m ρ c (Proc.devRef .tc main_arg0))
      (fun r => (W1 m ρ c (Proc.devRef .tc main_v8) : S100000x1.Idx → EReal) (ix2 r (0 : Fin 1)))
      (W1 m ρ c (Proc.devRef .tc main_arg2)) (W1 m ρ c (Proc.devRef .tc main_arg3))
      (fun s => (W1 m ρ c (Proc.devRef .tc main_v19) : S1x128.Idx → EReal) (ix2 (0 : Fin 1) s)) = _
  rw [W1_msg, W1_arg0, W1_cnt, W1_arg2, W1_arg3, W1_bias]
  have hd : (fun r : Fin 100000 => broadcastInDim S100000x1 ![0] bcast_S100000_S100000x1_0
      (deg (dstOf (m ((c : Thread nD τ).loc main_arg1)))) (ix2 r (0 : Fin 1)))
      = fun r => deg (dstOf (m ((c : Thread nD τ).loc main_arg1))) (ix1 r) :=
    funext fun r => bcast_vec_col_apply _ _ r 0
  have hb : (fun s : Fin 128 => shapeCast S1x128 (m ((c : Thread nD τ).loc main_arg4)) shapeCasts_S128_S1x128 (ix2 (0 : Fin 1) s))
      = fun s => (m ((c : Thread nD τ).loc main_arg4) : S128.Idx → EReal) (ix1 s) :=
    funext fun s => shapeCast_vec_row_apply _ _ s
  rw [hd, hb]

/-! ## What the second region finds -/

theorem W2_hidden (c : Dev nD) : (W2 m ρ c (Proc.devRef .tc main_v20) : S100000x128.Idx → EReal)
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) :=
  (W2_arr m ρ c 6).trans ((Region0.final (V1 m ρ) c).trans (region0_result m ρ c))

theorem W2_src (c : Dev nD) : (W2 m ρ c (Proc.devRef .tc main_v1) : S640000.Idx → BitVec 32)
    = srcOf (m ((c : Thread nD τ).loc main_arg1)) := (W2_of_ne m ρ c main_v1 (by decide)).trans (W1_src m ρ c)
theorem W2_dst (c : Dev nD) : (W2 m ρ c (Proc.devRef .tc main_v3) : S640000.Idx → BitVec 32)
    = dstOf (m ((c : Thread nD τ).loc main_arg1)) := (W2_of_ne m ρ c main_v3 (by decide)).trans (W1_dst m ρ c)
theorem W2_cnt (c : Dev nD) : (W2 m ρ c (Proc.devRef .tc main_v8) : S100000x1.Idx → EReal)
    = broadcastInDim S100000x1 ![0] bcast_S100000_S100000x1_0 (deg (dstOf (m ((c : Thread nD τ).loc main_arg1)))) :=
  (W2_arr m ρ c 2).trans (((dat0 (V1 m ρ) c).arrAt_in 2 rfl _).trans ((A_eq0 (V1 m ρ) c 2).trans (W1_cnt m ρ c)))
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

set_option maxHeartbeats 4000000 in
theorem W3_msg (c : Dev nD) : (W3 m ρ c (Proc.devRef .tc main_v30) : S100000x128.Idx → EReal)
    = agg (W2 m ρ c (Proc.devRef .tc main_v1)) (W2 m ρ c (Proc.devRef .tc main_v3)) (W2 m ρ c (Proc.devRef .tc main_v20)) := by
  read_stretch1
theorem W3_own (c : Dev nD) : W3 m ρ c (Proc.devRef .tc main_v20) = W2 m ρ c (Proc.devRef .tc main_v20) := by read_stretch1
theorem W3_cnt (c : Dev nD) : W3 m ρ c (Proc.devRef .tc main_v8) = W2 m ρ c (Proc.devRef .tc main_v8) := by read_stretch1
theorem W3_arg5 (c : Dev nD) : W3 m ρ c (Proc.devRef .tc main_arg5) = W2 m ρ c (Proc.devRef .tc main_arg5) := by read_stretch1
theorem W3_arg6 (c : Dev nD) : W3 m ρ c (Proc.devRef .tc main_arg6) = W2 m ρ c (Proc.devRef .tc main_arg6) := by read_stretch1
theorem W3_bias (c : Dev nD) : (W3 m ρ c (Proc.devRef .tc main_v31) : S1x16.Idx → EReal)
    = shapeCast S1x16 (W2 m ρ c (Proc.devRef .tc main_arg7)) shapeCasts_S16_S1x16 := by read_stretch1

/-- The second region leaves the class scores of the arguments. -/
theorem region1_result (c : Dev nD) : Region1.result (V3 m ρ) c
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold Region1.result outOf
  show scores (W3 m ρ c (Proc.devRef .tc main_v30)) (W3 m ρ c (Proc.devRef .tc main_v20))
      (fun r => (W3 m ρ c (Proc.devRef .tc main_v8) : S100000x1.Idx → EReal) (ix2 r (0 : Fin 1)))
      (W3 m ρ c (Proc.devRef .tc main_arg5)) (W3 m ρ c (Proc.devRef .tc main_arg6))
      (fun s => (W3 m ρ c (Proc.devRef .tc main_v31) : S1x16.Idx → EReal) (ix2 (0 : Fin 1) s)) = _
  rw [W3_msg, W3_own, W3_cnt, W3_arg5, W3_arg6, W3_bias, W2_src, W2_dst, W2_hidden, W2_cnt, W2_arg5, W2_arg6, W2_arg7]
  have hd : (fun r : Fin 100000 => broadcastInDim S100000x1 ![0] bcast_S100000_S100000x1_0
      (deg (dstOf (m ((c : Thread nD τ).loc main_arg1)))) (ix2 r (0 : Fin 1)))
      = fun r => deg (dstOf (m ((c : Thread nD τ).loc main_arg1))) (ix1 r) :=
    funext fun r => bcast_vec_col_apply _ _ r 0
  have hb : (fun s : Fin 16 => shapeCast S1x16 (m ((c : Thread nD τ).loc main_arg7)) shapeCasts_S16_S1x16 (ix2 (0 : Fin 1) s))
      = fun s => (m ((c : Thread nD τ).loc main_arg7) : S16.Idx → EReal) (ix1 s) :=
    funext fun s => shapeCast_vec_row_apply _ _ s
  rw [hd, hb]

/-- THE KERNEL PROGRAM'S RESULT: at the last segment boundary the result table holds the class scores of the arguments. -/
theorem result (c : Dev nD) : (W4 m ρ c (Proc.devRef .tc main_v32) : S100000x16.Idx → EReal)
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W4_arr m ρ c 6).trans ((Region1.final (V3 m ρ) c).trans (region1_result m ρ c))

end Cert.KernelIdeal.KValue

end
-- ==== Proof.RefValue.lean ====
/-
  The reference program's result as the same two layers.

  The reference builds the summed neighbour rows and the neighbour counts with the same gather and scatter-add, divides,
  multiplies by the weights with plain `dot_general`s, adds the bias and (after the first layer) takes the maximum with
  zero.  Read at an entry, its first layer with the rectifier is `Cert.Sage.hidden` and its second layer is
  `Cert.Sage.scores` of the summed rows, the own rows and the counts; the gather and the scatter-add are carried as the
  function `agg` and the count vector, never opened.
-/
import proofs.«120822_j84885733638151_2_alg».proof.Proof.Gen.ReferenceIdeal.Read
import proofs.«120822_j84885733638151_2_alg».proof.Proof.Spec

noncomputable section

namespace Cert.ReferenceIdeal.RefValue

open Idealize.ShloMosaic Idealize.ShloMosaic.ValueIdx
open Cert.ReferenceIdeal Cert.ReferenceIdeal.Read Cert.Lib.SageLayer Cert.Lib.HostForms Cert.Sage

/-- The summed neighbour rows of a feature table, as the reference spells them: rows gathered at the edges' sources,
    added up at the edges' destinations. -/
def agg (x1 : (⟨S2x640000, .i32⟩ : BufTy).Contents (Elt Ideal)) (feat : FVec Ideal S100000x128 .f32) : FVec Ideal S100000x128 .f32 :=
  Host.scatterAdd (F := Ideal) scatter_S100000x128_S640000x1_S640000x128_1_0_0_1 (val_main_v11 (F := Ideal)) (val_main_v12 (F := Ideal) x1)
    (Host.gather gather_S100000x128_S640000x1_S640000x128_1_0_n_n_0_1_1128 feat (val_main_v9 (F := Ideal) x1))

variable (x0 : (⟨S100000x128, .f32⟩ : BufTy).Contents (Elt Ideal)) (x1 : (⟨S2x640000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x16, .f32⟩ : BufTy).Contents (Elt Ideal)) (x7 : (⟨S16, .f32⟩ : BufTy).Contents (Elt Ideal))

/-- The first summed rows are `agg` of `x`; the second are `agg` of the hidden features (the same index arithmetic,
    printed twice). -/
theorem agg_first : val_main_v13 (F := Ideal) x0 x1 = agg x1 x0 := rfl
theorem agg_second : val_main_v39 (F := Ideal) x0 x1 x2 x3 x4 = agg x1 (val_main_v29 (F := Ideal) x0 x1 x2 x3 x4) := rfl
/-- The counts are computed twice, the same way. -/
theorem count_second : val_main_v43 (F := Ideal) x1 = val_main_v17 (F := Ideal) x1 := rfl

/-- The first layer and the rectifier, read at an entry, are `hidden`. -/
theorem hidden_eq : val_main_v29 (F := Ideal) x0 x1 x2 x3 x4
    = hidden (val_main_v13 (F := Ideal) x0 x1) x0 (fun r => val_main_v17 (F := Ideal) x1 (ix1 r)) x2 x3 (fun s => x4 (ix1 s)) := by
  funext i
  obtain ⟨r, q, rfl⟩ : ∃ (r : Fin 100000) (q : Fin 128), i = ix2 r q := ⟨i 0, i 1, eq_ix2 i⟩
  rw [hidden_apply]
  unfold val_main_v29 val_main_v28 val_main_v25 val_main_v23 val_main_v24 val_main_v22 val_main_v21 val_main_v20 val_main_v19
    val_main_v18 val_main_cst_3 val_main_v27 val_main_v26 val_main_call0_v0 val_main_call0_cst
  rw [maximumf_apply]
  exact congrArg₂ max (host_apply _ rfl _ x0 (val_main_v17 (F := Ideal) x1) x2 x3 x4 0x3F800000#32 _ _ _ _ _ r q)
    (bcast_scalar_apply _ _ (ix2 r q))

/-- The second layer, read at an entry, is `scores`. -/
theorem scores_eq : val_main_v54 (F := Ideal) x0 x1 x2 x3 x4 x5 x6 x7
    = scores (val_main_v39 (F := Ideal) x0 x1 x2 x3 x4) (val_main_v29 (F := Ideal) x0 x1 x2 x3 x4)
        (fun r => val_main_v43 (F := Ideal) x1 (ix1 r)) x5 x6 (fun s => x7 (ix1 s)) := by
  funext i
  obtain ⟨r, q, rfl⟩ : ∃ (r : Fin 100000) (q : Fin 16), i = ix2 r q := ⟨i 0, i 1, eq_ix2 i⟩
  rw [scores_apply]
  unfold val_main_v54 val_main_v51 val_main_v49 val_main_v50 val_main_v48 val_main_v47 val_main_v46 val_main_v45 val_main_v44
    val_main_cst_9 val_main_v53 val_main_v52
  exact host_apply _ rfl _ _ (val_main_v43 (F := Ideal) x1) x5 x6 x7 0x3F800000#32 _ _ _ _ _ r q

/-- THE REFERENCE'S RESULT: the class scores of the summed hidden rows, the hidden rows and the counts, the hidden rows
    being the hidden features of the summed rows of `x`, of `x` and of the counts. -/
theorem result_eq : val_main_v54 (F := Ideal) x0 x1 x2 x3 x4 x5 x6 x7
    = scores
        (agg x1 (hidden (agg x1 x0) x0 (fun r => val_main_v17 (F := Ideal) x1 (ix1 r)) x2 x3 (fun s => x4 (ix1 s))))
        (hidden (agg x1 x0) x0 (fun r => val_main_v17 (F := Ideal) x1 (ix1 r)) x2 x3 (fun s => x4 (ix1 s)))
        (fun r => val_main_v17 (F := Ideal) x1 (ix1 r)) x5 x6 (fun s => x7 (ix1 s)) := by
  rw [scores_eq, agg_second, count_second, hidden_eq, agg_first]

end Cert.ReferenceIdeal.RefValue

end
-- ==== Proof.lean ====
/-
  A two-layer mean-aggregating graph network (100000 nodes, 640000 edges, 128 → 128 → 16 features): the kernel
  program with two pallas_calls against the plain reference, over the extended reals.

  Both programs build the summed neighbour rows and the neighbour counts with the same gather and scatter-add.  Per
  layer and per entry (r, q) both then compute

      (∑ⱼ (M r j / max (d r) 1) · Wl j q  +  ∑ⱼ X r j · Wr j q)  +  b q,

  the first layer followed by the maximum with zero.  The kernel does it block by block on 5000 rows, the count kept as
  a column and the bias as a row, its operands narrowed to a shorter float format on the way into the two matrix
  products — no change over the extended reals —; the reference does it on whole tables.  The terms differ only in
  layout and in the order the blocks are visited, so no law of arithmetic beyond reading both sums over the same index
  is needed, and the finiteness of the inputs is never used.

  The modules: Proof/LibSageLayer.lean (the layer's entry, its two spellings), Proof/Spec.lean (the two layers on whole
  tables), Proof/Region0.lean and Proof/Region1.lean (what each pallas_call leaves in its result table),
  Proof/KernelRun.lean (the kernel program's run with its result named), Proof/KernelValue.lean (that result as a function
  of the arguments), Proof/RefValue.lean (the reference's result as the same function).
-/
import proofs.«120822_j84885733638151_2_alg».proof.Defs
import proofs.«120822_j84885733638151_2_alg».proof.Proof.Gen.Kernel
import proofs.«120822_j84885733638151_2_alg».proof.Proof.Gen.Kernel.Skeleton
import proofs.«120822_j84885733638151_2_alg».proof.Proof.Gen.Kernel.Launch
import proofs.«120822_j84885733638151_2_alg».proof.Proof.Gen.Kernel.Points
import proofs.«120822_j84885733638151_2_alg».proof.Proof.Gen.Kernel.Frame
import proofs.«120822_j84885733638151_2_alg».proof.Proof.Gen.KernelIdeal
import proofs.«120822_j84885733638151_2_alg».proof.Proof.Gen.KernelIdeal.Skeleton
import proofs.«120822_j84885733638151_2_alg».proof.Proof.Gen.KernelIdeal.Launch
import proofs.«120822_j84885733638151_2_alg».proof.Proof.Gen.KernelIdeal.Points
import proofs.«120822_j84885733638151_2_alg».proof.Proof.Gen.KernelIdeal.Frame
import proofs.«120822_j84885733638151_2_alg».proof.Proof.Gen.ReferenceIdeal
import proofs.«120822_j84885733638151_2_alg».proof.Proof.Gen.Pre_finite_inputs
import proofs.«120822_j84885733638151_2_alg».proof.Proof.Gen.ReferenceIdeal.Run
import proofs.«120822_j84885733638151_2_alg».proof.Proof.Gen.ReferenceIdeal.Read
import proofs.«120822_j84885733638151_2_alg».proof.Proof.KernelRun
import proofs.«120822_j84885733638151_2_alg».proof.Proof.KernelValue
import proofs.«120822_j84885733638151_2_alg».proof.Proof.RefValue
import Idealize.ShloMosaic.Adequacy
import Idealize.ShloMosaic.Init

noncomputable section

namespace Cert.Proof

open Idealize.ShloMosaic Idealize.SL.Sem

/-- The three programs run, fault-free, and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- The two programs sum the same neighbour rows: the same gather at the edges' sources and the same scatter-add at the
    edges' destinations, of the same edge table. -/
theorem agg_eq (ei : IVec Cert.KernelIdeal.S2x640000 32) (feat : FVec Ideal Cert.KernelIdeal.S100000x128 .f32) :
    Cert.ReferenceIdeal.RefValue.agg ei feat = Cert.KernelIdeal.KValue.agg (Cert.KernelIdeal.KValue.srcOf ei) (Cert.KernelIdeal.KValue.dstOf ei) feat := rfl

/-- And count the same neighbours. -/
theorem count_eq (ei : IVec Cert.KernelIdeal.S2x640000 32) :
    Cert.ReferenceIdeal.Read.val_main_v17 (F := Ideal) ei = Cert.KernelIdeal.KValue.deg (Cert.KernelIdeal.KValue.dstOf ei) := rfl

/-- From memories agreeing on the arguments both idealized programs end with the class scores `outOf` of the arguments
    in their result tables: the kernel by its run with the result named and the two regions' tables, the reference by its
    run read at an entry. -/
theorem algebraic : Cert.algebraic_KernelIdeal_ReferenceIdeal := by
  intro m ρ m' ρ' _ hagree
  refine ⟨fun c => Cert.KernelIdeal.KValue.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.KValue.result m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v54_eq, e0, e1, e2, e3, e4, e5, e6, e7, Cert.ReferenceIdeal.RefValue.result_eq]
    unfold Cert.KernelIdeal.KValue.outOf Cert.KernelIdeal.KValue.hiddenOf
    simp only [agg_eq, count_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
